-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S1024x1024 : Shape := ⟨2, ![1024, 1024]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S1024x1024 .f32) (main_arg5 : FVec F S4096 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S1024x1024 .f32) (main_arg2 : FVec F S1024x1024 .f32) (main_arg3 : FVec F S1024x1024 .f32) (main_arg4 : FVec F S1024x1024 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S4x2048x4096 : Shape := ⟨3, ![4, 2048, 4096]⟩
abbrev S1024x1024 : Shape := ⟨2, ![1024, 1024]⟩
abbrev S4096 : Shape := ⟨1, ![4096]⟩
abbrev S1024x4096 : Shape := ⟨2, ![1024, 4096]⟩
abbrev S4096x4096 : Shape := ⟨2, ![4096, 4096]⟩
abbrev S8192x4096 : Shape := ⟨2, ![8192, 4096]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 24
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x4096, .f32⟩
  | .hbm, ⟨10, _⟩ => ⟨S1024x1024, .f32⟩
  | .hbm, ⟨11, _⟩ => ⟨S1024x4096, .f32⟩
  | .hbm, ⟨12, _⟩ => ⟨S1024x1024, .f32⟩
  | .hbm, ⟨13, _⟩ => ⟨S1024x4096, .f32⟩
  | .hbm, ⟨14, _⟩ => ⟨S1024x1024, .f32⟩
  | .hbm, ⟨15, _⟩ => ⟨S1024x4096, .f32⟩
  | .hbm, ⟨16, _⟩ => ⟨S4096x4096, .f32⟩
  | .hbm, ⟨17, _⟩ => ⟨S4096x4096, .f32⟩
  | .hbm, ⟨18, _⟩ => ⟨S8192x4096, .f32⟩
  | .hbm, ⟨19, _⟩ => ⟨S8192x4096, .bf16⟩
  | .hbm, ⟨20, _⟩ => ⟨S4096x4096, .bf16⟩
  | .hbm, ⟨21, _⟩ => ⟨S1x4096, .f32⟩
  | .hbm, ⟨22, _⟩ => ⟨S8192x4096, .f32⟩
  | .hbm, ⟨23, _⟩ => ⟨S4x2048x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S1024x1024_S1024x1024_S1024x1024_S1024x1024_S1024x4096_d1 : Shape.Concatenates [S1024x1024, S1024x1024, S1024x1024, S1024x1024] S1024x4096 1
  concatenates_S1024x4096_S1024x4096_S1024x4096_S1024x4096_S4096x4096_d0 : Shape.Concatenates [S1024x4096, S1024x4096, S1024x4096, S1024x4096] S4096x4096 0
  transposes_S4096x4096_S4096x4096_1_0 : S4096x4096.Transposes [1, 0] S4096x4096
  shapeCasts_S4x2048x4096_S8192x4096 : S4x2048x4096.ShapeCasts S8192x4096
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x4096_S4x2048x4096 : S8192x4096.ShapeCasts S4x2048x4096
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v13) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S1024x1024 : Shape := ⟨2, ![1024, 1024]⟩
abbrev S4096 : Shape := ⟨1, ![4096]⟩
abbrev S1024x4096 : Shape := ⟨2, ![1024, 4096]⟩
abbrev S4096x4096 : Shape := ⟨2, ![4096, 4096]⟩
abbrev S1x1x4096 : Shape := ⟨3, ![1, 1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S4096, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x4096, .f32⟩
  | .hbm, ⟨10, _⟩ => ⟨S1024x1024, .f32⟩
  | .hbm, ⟨11, _⟩ => ⟨S1024x4096, .f32⟩
  | .hbm, ⟨12, _⟩ => ⟨S1024x1024, .f32⟩
  | .hbm, ⟨13, _⟩ => ⟨S1024x4096, .f32⟩
  | .hbm, ⟨14, _⟩ => ⟨S1024x1024, .f32⟩
  | .hbm, ⟨15, _⟩ => ⟨S1024x4096, .f32⟩
  | .hbm, ⟨16, _⟩ => ⟨S4096x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  concatenates_S1024x1024_S1024x1024_S1024x1024_S1024x1024_S1024x4096_d1 : Shape.Concatenates [S1024x1024, S1024x1024, S1024x1024, S1024x1024] S1024x4096 1
  concatenates_S1024x4096_S1024x4096_S1024x4096_S1024x4096_S4096x4096_d0 : Shape.Concatenates [S1024x4096, S1024x4096, S1024x4096, S1024x4096] S4096x4096 0
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelEntry.lean ====
/-
  The program around its one region, read at any float instance.

  Sixteen host operations run before the region.  They negate three of the four quaternion weight
  components, lay sixteen signed 1024×1024 pieces out as the 4096×4096 Hamilton block (four rows of four
  pieces, then the four rows stacked), transpose that block, flatten the activations to 8192 rows of 4096,
  round both to the narrow format, and view the bias as a single row.  None of them writes an argument
  array; the three arrays the region reads are results of these operations.  One host operation follows
  the region: it views the 8192×4096 product as 4×2048×4096.

  Stated here: what every buffer holds when the region is entered; that the program is "host operations,
  the region, host operations"; that each argument is found, and left, as launched; that an input window's
  staging buffer holds that window's block of its array at every grid point, whether or not the block was
  fetched there; and that a run ending in the region's own postcondition leaves the six arguments unchanged.
-/
import proofs.«141760_j65352222376532_1_alg».proof.Proof.Gen.Kernel.Launch
import proofs.«141760_j65352222376532_1_alg».proof.Proof.Gen.Kernel.Skeleton
import proofs.«141760_j65352222376532_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Every TensorCore buffer of core `c` after the sixteen host operations that precede the region. -/
abbrev entry₀ (c : Dev nD) : Valuation τ sig (Elt F) := StableHlo.after (List.flatten [hostOps0]) (fun b => m (c, b))
/-- The same, read at one reference. -/
abbrev entry (c : Dev nD) (b : Ref sig .tc) : Buf (Elt F) ((c : Thread nD τ).loc b) := entry₀ m c (Proc.devRef .tc b)

/-- No host operation of the program leaves a buffer at undetermined contents. -/
theorem lead_fresh : (hostOps0 : List (HloOp τ sig (Elt F))).Forall fun op => op.fresh = ∅ := by
  simp only [List.Forall]; repeat' constructor
theorem tail_fresh₀ : (hostOps1 : List (HloOp τ sig (Elt F))).Forall fun op => op.fresh = ∅ := by
  simp only [List.Forall]; repeat' constructor

/-- The program is the sixteen leading operations, the region, and the one trailing operation. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact lead_fresh) main_chain

/-- The trailing operation touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- leaves nothing undetermined, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh₀) op hop
/-- and writes only the reshaped result, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The arguments are found and left as launched -/

/-- A reference that no leading operation writes is found at its launch contents: each operation writes its
    own result buffer only, and the sixteen result buffers are decided to differ from the reference. -/
local macro "lead_writes_elsewhere" : tactic => `(tactic| (
  refine List.forall_iff_forall_mem.mp ?_
  simp only [hostOps0, List.flatten_cons, List.flatten_nil, List.append_nil, List.cons_append, List.nil_append, List.Forall,
    StableHlo.unary_writes, StableHlo.nary_writes, StableHlo.reshape_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (by lead_writes_elsewhere)
theorem entry_arg1 (c : Dev nD) : entry m c main_arg1 = m ((c : Thread nD τ).loc main_arg1) :=
  StableHlo.after_of_forall_not_mem (b := Proc.devRef .tc main_arg1) _ _ (by lead_writes_elsewhere)
theorem entry_arg2 (c : Dev nD) : entry m c main_arg2 = m ((c : Thread nD τ).loc main_arg2) :=
  StableHlo.after_of_forall_not_mem (b := Proc.devRef .tc main_arg2) _ _ (by lead_writes_elsewhere)
theorem entry_arg3 (c : Dev nD) : entry m c main_arg3 = m ((c : Thread nD τ).loc main_arg3) :=
  StableHlo.after_of_forall_not_mem (b := Proc.devRef .tc main_arg3) _ _ (by lead_writes_elsewhere)
theorem entry_arg4 (c : Dev nD) : entry m c main_arg4 = m ((c : Thread nD τ).loc main_arg4) :=
  StableHlo.after_of_forall_not_mem (b := Proc.devRef .tc main_arg4) _ _ (by lead_writes_elsewhere)
theorem entry_arg5 (c : Dev nD) : entry m c main_arg5 = m ((c : Thread nD τ).loc main_arg5) :=
  StableHlo.after_of_forall_not_mem (b := Proc.devRef .tc main_arg5) _ _ (by lead_writes_elsewhere)

/-- A reference that is neither the reshaped result nor one of the region's arrays ends at its contents
    at the region's entry: the trailing reshape writes elsewhere and the region's write-backs go to its arrays. -/
theorem exit_of_entry (dats : (p : Fin _) → (c : Dev nD) → Dat τ (Elt F) Unit ℕ (UR sig nD τ) ℕ (cfgs p) c) (c : Dev nD)
    (b : Ref sig .tc) (hb : b ≠ main_v17) (harr : ∀ w, Pipeline.arrRef spec0 w ≠ b) :
    Pipeline.afterTail₀ cfgs dats 0 (entry₀ m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb)),
    Pipeline.withArrays_of_ne _ c (entry₀ m c) _ b harr]

/-! ## The windows' blocks -/

/-- Window `w`'s block at grid point `t`, cut from its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The activations' window: its staging buffer holds the current block of 512 rows at every point — the
    block index moves only every fourth point, and between moves the buffer is left as it was. -/
theorem found_rows {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The transposed weight's window: its staging buffer holds the current block of 1024 columns. -/
theorem found_cols {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The bias row's window: its staging buffer holds the current 1024 entries. -/
theorem found_bias {c : Dev nD} (dat : Dat τ (Elt F) Unit ℕ (UR sig nD τ) ℕ cfg0 c) (hA : dat.A 2 = entry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## From the region's postcondition to the unchanged arguments -/

/-- A run that ends with the region's arrays at what the write-backs left and every other unscoped buffer as the
    trailing reshape leaves it, ends with the six argument arrays as launched: no window stages an argument, and no
    host operation writes one. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_arg0 (Pipeline.mem_restRefs_of main_arg0 (by decide) (by decide))).trans (exit_of_entry m dats c main_arg0 (by decide) (by decide))).trans (entry_arg0 m c),
     (((h c).2 main_arg1 (Pipeline.mem_restRefs_of main_arg1 (by decide) (by decide))).trans (exit_of_entry m dats c main_arg1 (by decide) (by decide))).trans (entry_arg1 m c),
     (((h c).2 main_arg2 (Pipeline.mem_restRefs_of main_arg2 (by decide) (by decide))).trans (exit_of_entry m dats c main_arg2 (by decide) (by decide))).trans (entry_arg2 m c),
     (((h c).2 main_arg3 (Pipeline.mem_restRefs_of main_arg3 (by decide) (by decide))).trans (exit_of_entry m dats c main_arg3 (by decide) (by decide))).trans (entry_arg3 m c),
     (((h c).2 main_arg4 (Pipeline.mem_restRefs_of main_arg4 (by decide) (by decide))).trans (exit_of_entry m dats c main_arg4 (by decide) (by decide))).trans (entry_arg4 m c),
     (((h c).2 main_arg5 (Pipeline.mem_restRefs_of main_arg5 (by decide) (by decide))).trans (exit_of_entry m dats c main_arg5 (by decide) (by decide))).trans (entry_arg5 m c)⟩) h

end Cert.Kernel.Region

end
-- ==== Proof.KernelBody.lean ====
/-
  One grid point of the blocked product, and the whole run, read at any float instance.

  The grid has 16 × 4 points.  At a point the body reads three staging buffers whole — 512 rows of the
  flattened activations, 1024 columns of the transposed weight, 1024 entries of the bias row — multiplies
  the first two into a zero accumulator, adds the bias row to every row of the product, and stores the
  512×1024 result over the whole of the output's staging buffer (it also reads that buffer once before the
  store and makes no use of what it read).  So the output's buffer ends at a value that depends only on the
  three input blocks, the inputs' buffers are left as found, and nothing else is touched.

  From this: the proof data of the region (what each buffer holds after the body at each point), the body's
  obligation at every point, the run of the whole program, and the unchanged arguments.
-/
import proofs.«141760_j65352222376532_1_alg».proof.Proof.KernelEntry

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four whole-buffer rectangles the body reads and writes through -/

abbrev allRows : Rect S512x4096 := Rect.unit (s := S512x4096) ![0, 0] S512x4096.size inb_S512x4096_S512x4096_0_0
abbrev allCols : Rect S4096x1024 := Rect.unit (s := S4096x1024) ![0, 0] S4096x1024.size inb_S4096x1024_S4096x1024_0_0
abbrev allBias : Rect S1x1024 := Rect.unit (s := S1x1024) ![0, 0] S1x1024.size inb_S1x1024_S1x1024_0_0
abbrev allOut : Rect S512x1024 := Rect.unit (s := S512x1024) ![0, 0] S512x1024.size inb_S512x1024_S512x1024_0_0

/-- What the output's staging buffer holds after the body: the one store's value, a function of the three
    input buffers' contents. -/
def product (rows : Vec F S512x4096 .bf16) (cols : Vec F S4096x1024 .bf16) (bias : Vec F S1x1024 .f32) : Vec F S512x1024 .f32 :=
  View.canon [⟨allOut, k0_pay1 (View.ld rows allRows) (View.ld cols allCols) (View.ld bias allBias)⟩]

/-- The one store covers the buffer. -/
theorem store_covers (p : Vec F S512x1024 .f32) (y : S512x1024.Idx) :
    ∃ pc ∈ ([⟨allOut, p⟩] : List (View.Piece (Elt F) S512x1024 .f32)), y ∈ pc.1.set :=
  View.cover_of_tiled [⟨allOut, p⟩] S512x1024.size (by rfl) y

/-! ## The body's triple -/

set_option maxHeartbeats 1000000 in
/-- On whole staging buffers — the inputs' at known contents, the output's at any — the body runs to its
    continuation with the inputs' buffers as they were and the output's at `product` of the inputs'. -/
theorem body_runs (c : Dev nD) (E : Set ℕ) (i : grid0.Coords)
    (arg2 : Memref sig .tc .vmem S512x4096 .bf16) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S512x1024 .f32) (harg5 : arg5.IsWhole)
    (rows : Vec F S512x4096 .bf16) (cols : Vec F S4096x1024 .bf16) (bias : Vec F S1x1024 .f32) (K : PUnit → sProp 𝕄) :
    iprop(owns (c : Thread nD τ) arg2 fullShare rows ∗ owns (c : Thread nD τ) arg3 fullShare cols ∗ owns (c : Thread nD τ) arg4 fullShare bias
        ∗ (∃ d, owns (c : Thread nD τ) arg5 fullShare d)
        ∗ (iprop(owns (c : Thread nD τ) arg2 fullShare rows ∗ owns (c : Thread nD τ) arg3 fullShare cols ∗ owns (c : Thread nD τ) arg4 fullShare bias
            ∗ owns (c : Thread nD τ) arg5 fullShare (product rows cols bias)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The region's proof data -/

/-- On core `c`: the arrays as the region finds them; after the body at point `t` each input's buffer at its block
    and the output's at `product` of the three blocks; the invariant is the untouched rest; nothing is owed. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => product (blk m c 0 t) (blk m c 1 t) (blk m c 2 t)
  Φ _ := Pipeline.ΦA spec0 c
  q _ := fullShare
  owed _ := 0

theorem arrays_at_entry (c : Dev nD) (w : Fin cfg0.W) : (dats m 0 c).A w = entry m c (Pipeline.arrRef spec0 w) := by
  dsimp only [dats]

theorem after_rows (c : Dev nD) (t : Fin cfg0.N) : (dats m 0 c).after 0 t = blk m c 0 t := by dsimp only [dats]
theorem after_cols (c : Dev nD) (t : Fin cfg0.N) : (dats m 0 c).after 1 t = blk m c 1 t := by dsimp only [dats]
theorem after_bias (c : Dev nD) (t : Fin cfg0.N) : (dats m 0 c).after 2 t = blk m c 2 t := by dsimp only [dats]
theorem after_out (c : Dev nD) (t : Fin cfg0.N) :
    (dats m 0 c).after 3 t = product (blk m c 0 t) (blk m c 1 t) (blk m c 2 t) := by dsimp only [dats]

theorem before_rows (c : Dev nD) (t : Fin cfg0.N) (d) : (dats m 0 c).before 0 t d = blk m c 0 t :=
  found_rows m (dats m 0 c) (arrays_at_entry m c 0) (after_rows m c) t d
theorem before_cols (c : Dev nD) (t : Fin cfg0.N) (d) : (dats m 0 c).before 1 t d = blk m c 1 t :=
  found_cols m (dats m 0 c) (arrays_at_entry m c 1) (after_cols m c) t d
theorem before_bias (c : Dev nD) (t : Fin cfg0.N) (d) : (dats m 0 c).before 2 t d = blk m c 2 t :=
  found_bias m (dats m 0 c) (arrays_at_entry m c 2) (after_bias m c) t d

/-! ## The body's obligation at a grid point -/

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the three input buffers hold their blocks, so the body's triple applies; the invariant and the
    owed signals pass through untouched. -/
theorem point_runs (c : Dev nD) (t : Fin cfg0.N) :
    handed m c t ⊢ wp frame (wpE (defs₀ (F := F)) Variants.none c none) Set.univ (bodyAt0 t) (fun _ => returned m c t) := by
  unfold handed returned bodyAt0
  simp only [before_rows, before_cols, before_bias]
  rw [show (dats m 0 c).Φ t.succ = (dats m 0 c).Φ t.castSucc from rfl,
    show (dats m 0 c).owesAt () t.succ = (dats m 0 c).owesAt () t.castSucc from rfl,
    after_rows, after_cols, after_bias, after_out]
  iintro ⟨HΦ, Ho, ⟨%d0, H0⟩, ⟨%d1, H1⟩, ⟨%d2, H2⟩, ⟨%d3, H3⟩⟩
  iapply (body_runs c Set.univ (grid0.coords t) _ _ _ _ _ _ _ _ (blk m c 0 t) (blk m c 1 t) (blk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem every_point (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- From any memory with zero counters, every weakly fair execution of the program terminates without a fault;
    at the end each of the region's arrays holds what the write-backs left of it, and every other unscoped buffer
    what the trailing reshape leaves. -/
theorem runs : θ_run defs (onTc (τ := τ) (main (F := F))) (s₀ m ρ) (Pipeline.FramePost cfgs (dats m) 0 (Pipeline.afterTail₀ cfgs (dats m) 0 (entry₀ m) [hostOps1])) :=
  Pipeline.θ_run_frame_around cfgs (dats m) (0 : Fin 1) launch0 defs₀ Variants.none m ρ main
    (hbody := fun c => (every_point m c).loose) (hshare := fun c => (dats m 0 c).share_full fun _ => rfl)
    (howed := fun _ _ => rfl) (V₀ := entry₀ m) (opss := [hostOps1]) (hsub := tail_sub) (hfresh := tail_fresh) (hkeep := tail_keeps)
    (hmain := main_around m Variants.none) (hA := arrays_at_entry m) (hΦ := fun _ _ => rfl)

/-- The argument arrays end unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept m ρ (dats m) (runs m ρ)

end Cert.Kernel.Region

end
-- ==== Proof.KernelIdealEntry.lean ====
/-
  The program around its one region, read at any float instance.

  Sixteen host operations run before the region.  They negate three of the four quaternion weight
  components, lay sixteen signed 1024×1024 pieces out as the 4096×4096 Hamilton block (four rows of four
  pieces, then the four rows stacked), transpose that block, flatten the activations to 8192 rows of 4096,
  round both to the narrow format, and view the bias as a single row.  None of them writes an argument
  array; the three arrays the region reads are results of these operations.  One host operation follows
  the region: it views the 8192×4096 product as 4×2048×4096.

  Stated here: what every buffer holds when the region is entered; that the program is "host operations,
  the region, host operations"; that each argument is found, and left, as launched; that an input window's
  staging buffer holds that window's block of its array at every grid point, whether or not the block was
  fetched there; and that a run ending in the region's own postcondition leaves the six arguments unchanged.
-/
import proofs.«141760_j65352222376532_1_alg».proof.Proof.Gen.KernelIdeal.Launch
import proofs.«141760_j65352222376532_1_alg».proof.Proof.Gen.KernelIdeal.Skeleton
import proofs.«141760_j65352222376532_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The buffers when the region is entered -/

/-- Every TensorCore buffer of core `c` after the sixteen host operations that precede the region. -/
abbrev entry₀ (c : Dev nD) : Valuation τ sig (Elt F) := StableHlo.after (List.flatten [hostOps0]) (fun b => m (c, b))
/-- The same, read at one reference. -/
abbrev entry (c : Dev nD) (b : Ref sig .tc) : Buf (Elt F) ((c : Thread nD τ).loc b) := entry₀ m c (Proc.devRef .tc b)

/-- No host operation of the program leaves a buffer at undetermined contents. -/
theorem lead_fresh : (hostOps0 : List (HloOp τ sig (Elt F))).Forall fun op => op.fresh = ∅ := by
  simp only [List.Forall]; repeat' constructor
theorem tail_fresh₀ : (hostOps1 : List (HloOp τ sig (Elt F))).Forall fun op => op.fresh = ∅ := by
  simp only [List.Forall]; repeat' constructor

/-- The program is the sixteen leading operations, the region, and the one trailing operation. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact lead_fresh) main_chain

/-- The trailing operation touches unscoped TensorCore buffers only, -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- leaves nothing undetermined, -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh₀) op hop
/-- and writes only the reshaped result, which is none of the region's four arrays. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  intro w
  fin_cases w <;> simp only [StableHlo.reshape_writes, Finset.mem_singleton] <;> exact StableHlo.devRef_ne_of_ne (by decide)

/-! ## The arguments are found and left as launched -/

/-- A reference that no leading operation writes is found at its launch contents: each operation writes its
    own result buffer only, and the sixteen result buffers are decided to differ from the reference. -/
local macro "lead_writes_elsewhere" : tactic => `(tactic| (
  refine List.forall_iff_forall_mem.mp ?_
  simp only [hostOps0, List.flatten_cons, List.flatten_nil, List.append_nil, List.cons_append, List.nil_append, List.Forall,
    StableHlo.unary_writes, StableHlo.nary_writes, StableHlo.reshape_writes, Finset.mem_singleton]
  repeat' apply And.intro
  all_goals exact StableHlo.devRef_ne_of_ne (by decide)))

theorem entry_arg0 (c : Dev nD) : entry m c main_arg0 = m ((c : Thread nD τ).loc main_arg0) :=
  StableHlo.after_of_forall_not_mem (b := Proc.devRef .tc main_arg0) _ _ (by lead_writes_elsewhere)
theorem entry_arg1 (c : Dev nD) : entry m c main_arg1 = m ((c : Thread nD τ).loc main_arg1) :=
  StableHlo.after_of_forall_not_mem (b := Proc.devRef .tc main_arg1) _ _ (by lead_writes_elsewhere)
theorem entry_arg2 (c : Dev nD) : entry m c main_arg2 = m ((c : Thread nD τ).loc main_arg2) :=
  StableHlo.after_of_forall_not_mem (b := Proc.devRef .tc main_arg2) _ _ (by lead_writes_elsewhere)
theorem entry_arg3 (c : Dev nD) : entry m c main_arg3 = m ((c : Thread nD τ).loc main_arg3) :=
  StableHlo.after_of_forall_not_mem (b := Proc.devRef .tc main_arg3) _ _ (by lead_writes_elsewhere)
theorem entry_arg4 (c : Dev nD) : entry m c main_arg4 = m ((c : Thread nD τ).loc main_arg4) :=
  StableHlo.after_of_forall_not_mem (b := Proc.devRef .tc main_arg4) _ _ (by lead_writes_elsewhere)
theorem entry_arg5 (c : Dev nD) : entry m c main_arg5 = m ((c : Thread nD τ).loc main_arg5) :=
  StableHlo.after_of_forall_not_mem (b := Proc.devRef .tc main_arg5) _ _ (by lead_writes_elsewhere)

/-- A reference that is neither the reshaped result nor one of the region's arrays ends at its contents
    at the region's entry: the trailing reshape writes elsewhere and the region's write-backs go to its arrays. -/
theorem exit_of_entry (dats : (p : Fin _) → (c : Dev nD) → Dat τ (Elt F) Unit ℕ (UR sig nD τ) ℕ (cfgs p) c) (c : Dev nD)
    (b : Ref sig .tc) (hb : b ≠ main_v17) (harr : ∀ w, Pipeline.arrRef spec0 w ≠ b) :
    Pipeline.afterTail₀ cfgs dats 0 (entry₀ m) [hostOps1] c b = entry m c b := by
  unfold Pipeline.afterTail₀
  rw [StableHlo.after_of_forall_not_mem (b := Proc.devRef .tc b) _ _ (List.forall_iff_forall_mem.mp (by
      simp only [hostOps1, List.flatten_cons, List.flatten_nil, List.append_nil, List.Forall, StableHlo.reshape_writes,
        Finset.mem_singleton]
      exact StableHlo.devRef_ne_of_ne hb)),
    Pipeline.withArrays_of_ne _ c (entry₀ m c) _ b harr]

/-! ## The windows' blocks -/

/-- Window `w`'s block at grid point `t`, cut from its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- The activations' window: its staging buffer holds the current block of 512 rows at every point — the
    block index moves only every fourth point, and between moves the buffer is left as it was. -/
theorem found_rows {c : Dev nD} (dat : Dat τ (Elt F) Unit ℕ (UR sig nD τ) ℕ cfg0 c) (hA : dat.A 0 = entry m c (Pipeline.arrRef spec0 0))
    (hafter : ∀ t, dat.after 0 t = blk m c 0 t) (t : Fin cfg0.N) (d) : dat.before 0 t d = blk m c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
/-- The transposed weight's window: its staging buffer holds the current block of 1024 columns. -/
theorem found_cols {c : Dev nD} (dat : Dat τ (Elt F) Unit ℕ (UR sig nD τ) ℕ cfg0 c) (hA : dat.A 1 = entry m c (Pipeline.arrRef spec0 1))
    (hafter : ∀ t, dat.after 1 t = blk m c 1 t) (t : Fin cfg0.N) (d) : dat.before 1 t d = blk m c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
/-- The bias row's window: its staging buffer holds the current 1024 entries. -/
theorem found_bias {c : Dev nD} (dat : Dat τ (Elt F) Unit ℕ (UR sig nD τ) ℕ cfg0 c) (hA : dat.A 2 = entry m c (Pipeline.arrRef spec0 2))
    (hafter : ∀ t, dat.after 2 t = blk m c 2 t) (t : Fin cfg0.N) (d) : dat.before 2 t d = blk m c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## From the region's postcondition to the unchanged arguments -/

/-- A run that ends with the region's arrays at what the write-backs left and every other unscoped buffer as the
    trailing reshape leaves it, ends with the six argument arrays as launched: no window stages an argument, and no
    host operation writes one. -/
theorem args_kept (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (entry₀ m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_arg0 (Pipeline.mem_restRefs_of main_arg0 (by decide) (by decide))).trans (exit_of_entry m dats c main_arg0 (by decide) (by decide))).trans (entry_arg0 m c),
     (((h c).2 main_arg1 (Pipeline.mem_restRefs_of main_arg1 (by decide) (by decide))).trans (exit_of_entry m dats c main_arg1 (by decide) (by decide))).trans (entry_arg1 m c),
     (((h c).2 main_arg2 (Pipeline.mem_restRefs_of main_arg2 (by decide) (by decide))).trans (exit_of_entry m dats c main_arg2 (by decide) (by decide))).trans (entry_arg2 m c),
     (((h c).2 main_arg3 (Pipeline.mem_restRefs_of main_arg3 (by decide) (by decide))).trans (exit_of_entry m dats c main_arg3 (by decide) (by decide))).trans (entry_arg3 m c),
     (((h c).2 main_arg4 (Pipeline.mem_restRefs_of main_arg4 (by decide) (by decide))).trans (exit_of_entry m dats c main_arg4 (by decide) (by decide))).trans (entry_arg4 m c),
     (((h c).2 main_arg5 (Pipeline.mem_restRefs_of main_arg5 (by decide) (by decide))).trans (exit_of_entry m dats c main_arg5 (by decide) (by decide))).trans (entry_arg5 m c)⟩) h

end Cert.KernelIdeal.Region

end
-- ==== Proof.KernelIdealBody.lean ====
/-
  One grid point of the blocked product, and the whole run, read at any float instance.

  The grid has 16 × 4 points.  At a point the body reads three staging buffers whole — 512 rows of the
  flattened activations, 1024 columns of the transposed weight, 1024 entries of the bias row — multiplies
  the first two into a zero accumulator, adds the bias row to every row of the product, and stores the
  512×1024 result over the whole of the output's staging buffer (it also reads that buffer once before the
  store and makes no use of what it read).  So the output's buffer ends at a value that depends only on the
  three input blocks, the inputs' buffers are left as found, and nothing else is touched.

  From this: the proof data of the region (what each buffer holds after the body at each point), the body's
  obligation at every point, the run of the whole program, and the unchanged arguments.
-/
import proofs.«141760_j65352222376532_1_alg».proof.Proof.KernelIdealEntry

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The four whole-buffer rectangles the body reads and writes through -/

abbrev allRows : Rect S512x4096 := Rect.unit (s := S512x4096) ![0, 0] S512x4096.size inb_S512x4096_S512x4096_0_0
abbrev allCols : Rect S4096x1024 := Rect.unit (s := S4096x1024) ![0, 0] S4096x1024.size inb_S4096x1024_S4096x1024_0_0
abbrev allBias : Rect S1x1024 := Rect.unit (s := S1x1024) ![0, 0] S1x1024.size inb_S1x1024_S1x1024_0_0
abbrev allOut : Rect S512x1024 := Rect.unit (s := S512x1024) ![0, 0] S512x1024.size inb_S512x1024_S512x1024_0_0

/-- What the output's staging buffer holds after the body: the one store's value, a function of the three
    input buffers' contents. -/
def product (rows : Vec F S512x4096 .bf16) (cols : Vec F S4096x1024 .bf16) (bias : Vec F S1x1024 .f32) : Vec F S512x1024 .f32 :=
  View.canon [⟨allOut, k0_pay1 (View.ld rows allRows) (View.ld cols allCols) (View.ld bias allBias)⟩]

/-- The one store covers the buffer. -/
theorem store_covers (p : Vec F S512x1024 .f32) (y : S512x1024.Idx) :
    ∃ pc ∈ ([⟨allOut, p⟩] : List (View.Piece (Elt F) S512x1024 .f32)), y ∈ pc.1.set :=
  View.cover_of_tiled [⟨allOut, p⟩] S512x1024.size (by rfl) y

/-! ## The body's triple -/

set_option maxHeartbeats 1000000 in
/-- On whole staging buffers — the inputs' at known contents, the output's at any — the body runs to its
    continuation with the inputs' buffers as they were and the output's at `product` of the inputs'. -/
theorem body_runs (c : Dev nD) (E : Set ℕ) (i : grid0.Coords)
    (arg2 : Memref sig .tc .vmem S512x4096 .bf16) (harg2 : arg2.IsWhole) (arg3 : Memref sig .tc .vmem S4096x1024 .bf16) (harg3 : arg3.IsWhole)
    (arg4 : Memref sig .tc .vmem S1x1024 .f32) (harg4 : arg4.IsWhole) (arg5 : Memref sig .tc .vmem S512x1024 .f32) (harg5 : arg5.IsWhole)
    (rows : Vec F S512x4096 .bf16) (cols : Vec F S4096x1024 .bf16) (bias : Vec F S1x1024 .f32) (K : PUnit → sProp 𝕄) :
    iprop(owns (c : Thread nD τ) arg2 fullShare rows ∗ owns (c : Thread nD τ) arg3 fullShare cols ∗ owns (c : Thread nD τ) arg4 fullShare bias
        ∗ (∃ d, owns (c : Thread nD τ) arg5 fullShare d)
        ∗ (iprop(owns (c : Thread nD τ) arg2 fullShare rows ∗ owns (c : Thread nD τ) arg3 fullShare cols ∗ owns (c : Thread nD τ) arg4 fullShare bias
            ∗ owns (c : Thread nD τ) arg5 fullShare (product rows cols bias)) -∗ K ⟨⟩))
      ⊢ wp frame (wpE (defs₀ (F := F)) Variants.none c none) E (cc0__matmul_bias_kernel i arg2 harg2 arg3 harg3 arg4 harg4 arg5 harg5) K := by
  simp only [cc0__matmul_bias_kernel_eq_skeleton]; unfold cc0__matmul_bias_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (store_covers _)

/-! ## The region's proof data -/

/-- On core `c`: the arrays as the region finds them; after the body at point `t` each input's buffer at its block
    and the output's at `product` of the three blocks; the invariant is the untouched rest; nothing is owed. -/
def dats (_ : Fin 1) (c : Dev nD) : Dat τ (Elt F) Unit ℕ (UR sig nD τ) ℕ cfg0 c where
  A w := entry m c (Pipeline.arrRef spec0 w)
  after w t := match w with
    | ⟨0, _⟩ => blk m c 0 t
    | ⟨1, _⟩ => blk m c 1 t
    | ⟨2, _⟩ => blk m c 2 t
    | ⟨3, _⟩ => product (blk m c 0 t) (blk m c 1 t) (blk m c 2 t)
  Φ _ := Pipeline.ΦA spec0 c
  q _ := fullShare
  owed _ := 0

theorem arrays_at_entry (c : Dev nD) (w : Fin cfg0.W) : (dats m 0 c).A w = entry m c (Pipeline.arrRef spec0 w) := by
  dsimp only [dats]

theorem after_rows (c : Dev nD) (t : Fin cfg0.N) : (dats m 0 c).after 0 t = blk m c 0 t := by dsimp only [dats]
theorem after_cols (c : Dev nD) (t : Fin cfg0.N) : (dats m 0 c).after 1 t = blk m c 1 t := by dsimp only [dats]
theorem after_bias (c : Dev nD) (t : Fin cfg0.N) : (dats m 0 c).after 2 t = blk m c 2 t := by dsimp only [dats]
theorem after_out (c : Dev nD) (t : Fin cfg0.N) :
    (dats m 0 c).after 3 t = product (blk m c 0 t) (blk m c 1 t) (blk m c 2 t) := by dsimp only [dats]

theorem before_rows (c : Dev nD) (t : Fin cfg0.N) (d) : (dats m 0 c).before 0 t d = blk m c 0 t :=
  found_rows m (dats m 0 c) (arrays_at_entry m c 0) (after_rows m c) t d
theorem before_cols (c : Dev nD) (t : Fin cfg0.N) (d) : (dats m 0 c).before 1 t d = blk m c 1 t :=
  found_cols m (dats m 0 c) (arrays_at_entry m c 1) (after_cols m c) t d
theorem before_bias (c : Dev nD) (t : Fin cfg0.N) (d) : (dats m 0 c).before 2 t d = blk m c 2 t :=
  found_bias m (dats m 0 c) (arrays_at_entry m c 2) (after_bias m c) t d

/-! ## The body's obligation at a grid point -/

/-- What the body is handed at point `t`, -/
def handed (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the three input buffers hold their blocks, so the body's triple applies; the invariant and the
    owed signals pass through untouched. -/
theorem point_runs (c : Dev nD) (t : Fin cfg0.N) :
    handed m c t ⊢ wp frame (wpE (defs₀ (F := F)) Variants.none c none) Set.univ (bodyAt0 t) (fun _ => returned m c t) := by
  unfold handed returned bodyAt0
  simp only [before_rows, before_cols, before_bias]
  rw [show (dats m 0 c).Φ t.succ = (dats m 0 c).Φ t.castSucc from rfl,
    show (dats m 0 c).owesAt () t.succ = (dats m 0 c).owesAt () t.castSucc from rfl,
    after_rows, after_cols, after_bias, after_out]
  iintro ⟨HΦ, Ho, ⟨%d0, H0⟩, ⟨%d1, H1⟩, ⟨%d2, H2⟩, ⟨%d3, H3⟩⟩
  iapply (body_runs c Set.univ (grid0.coords t) _ _ _ _ _ _ _ _ (blk m c 0 t) (blk m c 1 t) (blk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem every_point (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- From any memory with zero counters, every weakly fair execution of the program terminates without a fault;
    at the end each of the region's arrays holds what the write-backs left of it, and every other unscoped buffer
    what the trailing reshape leaves. -/
theorem runs : θ_run defs (onTc (τ := τ) (main (F := F))) (s₀ m ρ) (Pipeline.FramePost cfgs (dats m) 0 (Pipeline.afterTail₀ cfgs (dats m) 0 (entry₀ m) [hostOps1])) :=
  Pipeline.θ_run_frame_around cfgs (dats m) (0 : Fin 1) launch0 defs₀ Variants.none m ρ main
    (hbody := fun c => (every_point m c).loose) (hshare := fun c => (dats m 0 c).share_full fun _ => rfl)
    (howed := fun _ _ => rfl) (V₀ := entry₀ m) (opss := [hostOps1]) (hsub := tail_sub) (hfresh := tail_fresh) (hkeep := tail_keeps)
    (hmain := main_around m Variants.none) (hA := arrays_at_entry m) (hΦ := fun _ _ => rfl)

/-- The argument arrays end unchanged. -/
theorem args_unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept m ρ (dats m) (runs m ρ)

end Cert.KernelIdeal.Region

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.ProductEntry.lean ====
/-
  One entry of what the body stores.

  With `rows` a block of 512 rows of the flattened activations, `cols` a block of 1024 columns of the transposed
  weight and `bias` the matching 1024 entries of the bias row, the value the body stores has at entry (p, q)

      (∑ k, rows[p, k] · cols[k, q]) + bias[0, q]

  on the extended reals: the product is accumulated from zero, so it is the plain sum, and the bias row is
  repeated down the 512 rows before it is added.
-/
import proofs.«141760_j65352222376532_1_alg».proof.Proof.Gen.KernelIdeal.Skeleton
import proofs.«141760_j65352222376532_1_alg».proof.Proof.LibMatmulBlock
import Idealize.ShloMosaic.Lib.Pipeline.Value
import Idealize.ShloMosaic.Lib.ValueIdx
import Idealize.ShloMosaic.Lib.ValueLayout

noncomputable section

open scoped BigOperators

namespace Cert.KernelIdeal.Product

open Cert.KernelIdeal Cert.KernelIdeal.Gen Idealize.ShloMosaic Idealize.ShloMosaic.ValueIdx

/-- The stored value at entry (p, q) of the block. -/
theorem stored_at (rows : FVec Ideal S512x4096 .bf16) (cols : FVec Ideal S4096x1024 .bf16) (bias : FVec Ideal S1x1024 .f32)
    (p : Fin 512) (q : Fin 1024) :
    k0_pay1 (F := Ideal) rows cols bias (ix2 p q)
      = (∑ k : Fin 4096, rows (ix2 p k) * cols (ix2 k q)) + bias (ix2 (0 : Fin 1) q) := by
  unfold k0_pay1
  rw [shapeCast_self, shapeCast_self, shapeCast_self]
  show matmul dot_S512x4096_S4096x1024_S512x1024_1_0_0_1_n_n none rows cols (constant (F := Ideal) S512x1024 .f32 0x00000000#32) (ix2 p q)
      + broadcastTo S512x1024 bias broadcasts_S1x1024_S512x1024 (ix2 p q) = _
  rw [broadcastTo_1b_ab_apply bias broadcasts_S1x1024_S512x1024 p q]
  exact congrArg (· + bias (ix2 (0 : Fin 1) q))
    (Cert.LibMatmulBlock.matmul_zero_apply dot_S512x4096_S4096x1024_S512x1024_1_0_0_1_n_n_wf none rows cols p q)

end Cert.KernelIdeal.Product

end
-- ==== Proof.ProductArray.lean ====
/-
  The product array after the region.

  Write X for the flattened activations (8192 × 4096), Wt for the transposed weight (4096 × 4096) and B for the
  bias row (1 × 4096), each as the region finds it.  The function

      blocked X Wt B [r, o] = (∑ k, X[r, k] · Wt[k, o]) + B[0, o]

  is what the region's output array holds at the end.  Grid point (i, j) reads rows 512·i … 512·i + 511 of X, columns
  1024·j … 1024·j + 1023 of Wt and of B, and writes back rows 512·i …, columns 1024·j … of the output; at an entry
  (p, q) of its block the stored value is the sum over k of X[512·i + p, k] · Wt[k, 1024·j + q] plus B[0, 1024·j + q],
  which is `blocked` at (512·i + p, 1024·j + q).  The 16 × 4 blocks tile the array, so every entry is written.
-/
import proofs.«141760_j65352222376532_1_alg».proof.Proof.KernelIdealBody
import proofs.«141760_j65352222376532_1_alg».proof.Proof.ProductEntry

set_option maxRecDepth 16384

noncomputable section

open scoped BigOperators

namespace Cert.KernelIdeal.Product

open Cert.KernelIdeal Cert.KernelIdeal.Gen Cert.KernelIdeal.Region
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The output array as one function of the three arrays the region reads. -/
def blocked (X : FVec Ideal S8192x4096 .bf16) (Wt : FVec Ideal S4096x4096 .bf16) (B : FVec Ideal S1x4096 .f32) :
    FVec Ideal S8192x4096 .f32 :=
  fun i => (∑ k : Fin 4096, X (ix2 (i 0 : Fin 8192) k) * Wt (ix2 k (i 1 : Fin 4096))) + B (ix2 (0 : Fin 1) (i 1 : Fin 4096))

theorem zero_offsets : (![0, 0] : Fin 2 → Nat) = fun _ => 0 := funext fun a => by fin_cases a <;> rfl

/-- The index maps, decided over the 64 grid points: the activations' block moves with the output's row block and
    stays at column block 0; the weight's and the bias's blocks stay at row block 0 and move with the output's column
    block; the output's block indices stay below 16 and 4. -/
theorem index_maps : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every pair (row block, column block) is some grid point's. -/
theorem index_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-- What grid point `t` writes back is block `t` of `blocked` of the three arrays. -/
theorem written_back (c : Dev nD) (t : Fin cfg0.N) :
    (dats m 0 c).flushed 3 t = ((cfg0.win 3).blk t).view.read (Elt Ideal)
      (blocked (entry m c main_v13) (entry m c main_v14) (entry m c main_v15)) := by
  show (cfg0.win 3).cut (grid0.coords t) ((dats m 0 c).after 3 t) = _
  rw [after_out]
  unfold product
  rw [View.canon_unit_zero zero_offsets]
  simp only [View.ld_unit_zero (S := S512x4096) zero_offsets, View.ld_unit_zero (S := S4096x1024) zero_offsets,
    View.ld_unit_zero (S := S1x1024) zero_offsets]
  obtain ⟨e0, e1, e2, e3, e4, e5, e6, e7⟩ := index_maps t
  funext j
  obtain ⟨p, q, rfl⟩ : ∃ (p : Fin 512) (q : Fin 1024), j = ix2 p q := ⟨j 0, j 1, eq_ix2 j⟩
  refine (stored_at (blk m c 0 t) (blk m c 1 t) (blk m c 2 t) p q).trans ?_
  have hp : p.val < 512 := p.isLt
  have hq : q.val < 1024 := q.isLt
  have hx : ∀ k : Fin 4096, blk m c 0 t (ix2 p k)
      = entry m c main_v13 (ix2 ((((cfg0.win 3).blk t).view.emb (ix2 p q)) 0 : Fin 8192) k) := fun k => by
    show entry m c main_v13 (((cfg0.win 0).blk t).view.emb (ix2 p k)) = _
    refine congrArg (entry m c main_v13) (funext fun a => Fin.ext ?_)
    have hk : k.val < 4096 := k.isLt
    match a with
    | ⟨0, _⟩ => show win0_0.index t (0 : Fin 2) * 512 + 1 * p.val = win0_3.index t (0 : Fin 2) * 512 + 1 * p.val; omega
    | ⟨1, _⟩ => show win0_0.index t (1 : Fin 2) * 4096 + 1 * k.val = k.val; omega
  have hw : ∀ k : Fin 4096, blk m c 1 t (ix2 k q)
      = entry m c main_v14 (ix2 k ((((cfg0.win 3).blk t).view.emb (ix2 p q)) 1 : Fin 4096)) := fun k => by
    show entry m c main_v14 (((cfg0.win 1).blk t).view.emb (ix2 k q)) = _
    refine congrArg (entry m c main_v14) (funext fun a => Fin.ext ?_)
    have hk : k.val < 4096 := k.isLt
    match a with
    | ⟨0, _⟩ => show win0_1.index t (0 : Fin 2) * 4096 + 1 * k.val = k.val; omega
    | ⟨1, _⟩ => show win0_1.index t (1 : Fin 2) * 1024 + 1 * q.val = win0_3.index t (1 : Fin 2) * 1024 + 1 * q.val; omega
  have hb : blk m c 2 t (ix2 (0 : Fin 1) q)
      = entry m c main_v15 (ix2 (0 : Fin 1) ((((cfg0.win 3).blk t).view.emb (ix2 p q)) 1 : Fin 4096)) := by
    show entry m c main_v15 (((cfg0.win 2).blk t).view.emb (ix2 (0 : Fin 1) q)) = _
    refine congrArg (entry m c main_v15) (funext fun a => Fin.ext ?_)
    match a with
    | ⟨0, _⟩ => show win0_2.index t (0 : Fin 2) * 1 + 1 * 0 = 0; omega
    | ⟨1, _⟩ => show win0_2.index t (1 : Fin 2) * 1024 + 1 * q.val = win0_3.index t (1 : Fin 2) * 1024 + 1 * q.val; omega
  rw [hb, Finset.sum_congr rfl fun k _ => by rw [hx k, hw k]]
  rfl

/-- An index of the output array lies in point `t`'s block iff each coordinate lies in the block's range. -/
theorem in_block (t : Fin cfg0.N) (i : S8192x4096.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v16).slice (win0_3.rect t)).set ↔ _
  rw [View.set_slice_whole, Rect.mem_set_unit]
  exact Iff.rfl

/-- Every entry of the output array is in the block of the point whose row block is r / 512 and column block o / 1024. -/
theorem blocks_cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := index_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [in_block]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The output array after the run. -/
theorem product_array (c : Dev nD) :
    (dats m 0 c).arrAt 3 cfg0.N = blocked (entry m c main_v13) (entry m c main_v14) (entry m c main_v15) :=
  (dats m 0 c).arrAt_eq_of_cover 3 _ (fun t _ => written_back m c t) blocks_cover

end Cert.KernelIdeal.Product

end
-- ==== Proof.Layer.lean ====
/-
  The quaternion linear layer as one function of its arrays, on the extended reals.

  With `x` the activations (4 batches of 2048 positions, 4096 features each), `W` the 4096×4096 weight block
  (output feature by input feature) and `bias` one number per output feature,

      layer x W bias [b, s, o] = (∑ f, x[b, s, f] · W[o, f]) + bias[o].

  Both programs of this certificate compute this function; the Hamilton structure of `W` plays no part, since
  both build `W` by the same operations and only ever read it entry by entry.
-/
import Idealize.ShloMosaic.PureOps.Ideal
import Idealize.ShloMosaic.Lib.ValueIdx

noncomputable section

open scoped BigOperators

namespace Cert.QuatLinear

open Idealize.ShloMosaic Idealize.ShloMosaic.ValueIdx

/-- One entry of the layer's output, by its three coordinates. -/
def layerAt (x : FVec Ideal ⟨3, ![4, 2048, 4096]⟩ .f32) (W : FVec Ideal ⟨2, ![4096, 4096]⟩ .f32) (bias : FVec Ideal ⟨1, ![4096]⟩ .f32)
    (b : Fin 4) (s : Fin 2048) (o : Fin 4096) : EReal :=
  (∑ f : Fin 4096, x (ix3 b s f) * W (ix2 o f)) + bias (ix1 o)

/-- The layer's output array. -/
def layer (x : FVec Ideal ⟨3, ![4, 2048, 4096]⟩ .f32) (W : FVec Ideal ⟨2, ![4096, 4096]⟩ .f32) (bias : FVec Ideal ⟨1, ![4096]⟩ .f32) :
    FVec Ideal ⟨3, ![4, 2048, 4096]⟩ .f32 :=
  fun i => layerAt x W bias (i 0) (i 1) (i 2)

theorem layer_apply (x : FVec Ideal ⟨3, ![4, 2048, 4096]⟩ .f32) (W : FVec Ideal ⟨2, ![4096, 4096]⟩ .f32) (bias : FVec Ideal ⟨1, ![4096]⟩ .f32)
    (b : Fin 4) (s : Fin 2048) (o : Fin 4096) : layer x W bias (ix3 b s o) = layerAt x W bias b s o := rfl

end Cert.QuatLinear

end
-- ==== Proof.ProductHost.lean ====
/-
  The kernel's program computes the layer.

  Before the region the host builds three arrays from the arguments: X, the activations with their batch and
  position axes merged (row 2048·b + s is position s of batch b); Wt, the transpose of the weight block W, so
  Wt[k, o] = W[o, k]; and B, the bias as a single row.  The change of format applied to X and Wt is the identity
  on the extended reals.  After the region the host splits the rows of the product array back into batch and
  position.  So the result at (b, s, o) is the product array at (2048·b + s, o), which is

      (∑ k, X[2048·b + s, k] · Wt[k, o]) + B[0, o] = (∑ k, x[b, s, k] · W[o, k]) + bias[o],

  the layer.  The weight block is assembled exactly as the reference assembles it, and is never opened.
-/
import proofs.«141760_j65352222376532_1_alg».proof.Proof.ProductArray
import proofs.«141760_j65352222376532_1_alg».proof.Proof.Layer

set_option maxRecDepth 16384

noncomputable section

open scoped BigOperators

namespace Cert.KernelIdeal.Product

open Cert.KernelIdeal Cert.KernelIdeal.Gen Cert.KernelIdeal.Region Cert.QuatLinear
open Idealize.ShloMosaic Idealize.ShloMosaic.TcCoe Idealize.ShloMosaic.ValueIdx Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The weight block: four rows of four signed components each, stacked. -/
def weight (wr wi wj wk : FVec Ideal S1024x1024 .f32) : FVec Ideal S4096x4096 .f32 :=
  concatenate S4096x4096 0 [⟨S1024x4096, concatenate S1024x4096 1 [⟨S1024x1024, wr⟩, ⟨S1024x1024, Host.negf (F := Ideal) wi⟩, ⟨S1024x1024, Host.negf (F := Ideal) wj⟩, ⟨S1024x1024, Host.negf (F := Ideal) wk⟩] concatenates_S1024x1024_S1024x1024_S1024x1024_S1024x1024_S1024x4096_d1⟩,
    ⟨S1024x4096, concatenate S1024x4096 1 [⟨S1024x1024, wi⟩, ⟨S1024x1024, wr⟩, ⟨S1024x1024, wk⟩, ⟨S1024x1024, Host.negf (F := Ideal) wj⟩] concatenates_S1024x1024_S1024x1024_S1024x1024_S1024x1024_S1024x4096_d1⟩,
    ⟨S1024x4096, concatenate S1024x4096 1 [⟨S1024x1024, wj⟩, ⟨S1024x1024, Host.negf (F := Ideal) wk⟩, ⟨S1024x1024, wr⟩, ⟨S1024x1024, wi⟩] concatenates_S1024x1024_S1024x1024_S1024x1024_S1024x1024_S1024x4096_d1⟩,
    ⟨S1024x4096, concatenate S1024x4096 1 [⟨S1024x1024, wk⟩, ⟨S1024x1024, wj⟩, ⟨S1024x1024, Host.negf (F := Ideal) wi⟩, ⟨S1024x1024, wr⟩] concatenates_S1024x1024_S1024x1024_S1024x1024_S1024x1024_S1024x4096_d1⟩] concatenates_S1024x4096_S1024x4096_S1024x4096_S1024x4096_S4096x4096_d0

/-! ## The three arrays the region reads -/

theorem rows_array (c : Dev nD) : @Eq (FVec Ideal S8192x4096 .bf16) (entry m c main_v13)
    (truncf (F := Ideal) .bf16 (shapeCast S8192x4096 (m ((c : Thread nD τ).loc main_arg0) : FVec Ideal S4x2048x4096 .f32) shapeCasts_S4x2048x4096_S8192x4096) bitsLt_bf16_f32) := by
  show StableHlo.after hostOps0 (fun b => m (c, b)) (Proc.devRef .tc main_v13) = _
  after_results
  rfl

theorem cols_array (c : Dev nD) : @Eq (FVec Ideal S4096x4096 .bf16) (entry m c main_v14)
    (truncf (F := Ideal) .bf16 (transpose S4096x4096 [1, 0] (weight (m ((c : Thread nD τ).loc main_arg1)) (m ((c : Thread nD τ).loc main_arg2))
        (m ((c : Thread nD τ).loc main_arg3)) (m ((c : Thread nD τ).loc main_arg4))) transposes_S4096x4096_S4096x4096_1_0) bitsLt_bf16_f32) := by
  show StableHlo.after hostOps0 (fun b => m (c, b)) (Proc.devRef .tc main_v14) = _
  after_results
  rfl

theorem bias_array (c : Dev nD) : @Eq (FVec Ideal S1x4096 .f32) (entry m c main_v15)
    (shapeCast S1x4096 (m ((c : Thread nD τ).loc main_arg5) : FVec Ideal S4096 .f32) shapeCasts_S4096_S1x4096) := by
  show StableHlo.after hostOps0 (fun b => m (c, b)) (Proc.devRef .tc main_v15) = _
  after_results
  rfl

/-! ## The result, entry by entry -/

/-- The product array of the three host-built arrays, with its rows split into batch and position, is the layer. -/
theorem split_rows_is_layer (x : FVec Ideal S4x2048x4096 .f32) (W : FVec Ideal S4096x4096 .f32) (bias : FVec Ideal S4096 .f32) :
    shapeCast S4x2048x4096
        (blocked (truncf .bf16 (shapeCast S8192x4096 x shapeCasts_S4x2048x4096_S8192x4096) bitsLt_bf16_f32)
          (truncf .bf16 (transpose S4096x4096 [1, 0] W transposes_S4096x4096_S4096x4096_1_0) bitsLt_bf16_f32)
          (shapeCast S1x4096 bias shapeCasts_S4096_S1x4096))
        shapeCasts_S8192x4096_S4x2048x4096
      = layer x W bias := by
  funext i
  obtain ⟨b, s, o, rfl⟩ : ∃ (b : Fin 4) (s : Fin 2048) (o : Fin 4096), i = ix3 b s o := ⟨i 0, i 1, i 2, eq_ix3 i⟩
  have hb : b.val < 4 := b.isLt
  have hs : s.val < 2048 := s.isLt
  rw [layer_apply]
  refine (shapeCast_apply _ shapeCasts_S8192x4096_S4x2048x4096 (ix3 b s o) (ix2 (⟨b.val * 2048 + s.val, by omega⟩ : Fin 8192) o) (by
    rw [Shape.rowMajor_val_two, Shape.rowMajor_val_three]; rfl)).trans ?_
  unfold blocked layerAt
  refine congrArg₂ (· + ·) (Finset.sum_congr rfl fun k _ => congrArg₂ (· * ·) ?_ ?_) ?_
  · exact shapeCast_apply x shapeCasts_S4x2048x4096_S8192x4096 (ix2 (⟨b.val * 2048 + s.val, by omega⟩ : Fin 8192) k) (ix3 b s k) (by
      rw [Shape.rowMajor_val_two, Shape.rowMajor_val_three]; rfl)
  · exact transpose_apply [1, 0] W transposes_S4096x4096_S4096x4096_1_0 (ix2 k o) (ix2 o k) (fun a => by
      match a with | ⟨0, _⟩ => rfl | ⟨1, _⟩ => rfl)
  · exact shapeCast_apply bias shapeCasts_S4096_S1x4096 (ix2 (0 : Fin 1) o) (ix1 o) (by
      rw [Shape.rowMajor_val_two, Shape.rowMajor_val_one]; show o.val = 0 * 4096 + o.val; omega)

/-- What the result buffer holds once the trailing reshape has run. -/
theorem result_array (c : Dev nD) :
    @Eq (FVec Ideal S4x2048x4096 .f32) (Pipeline.afterTail₀ cfgs (dats m) 0 (entry₀ m) [hostOps1] c main_v17)
      (layer (m ((c : Thread nD τ).loc main_arg0))
          (weight (m ((c : Thread nD τ).loc main_arg1)) (m ((c : Thread nD τ).loc main_arg2)) (m ((c : Thread nD τ).loc main_arg3)) (m ((c : Thread nD τ).loc main_arg4)))
          (m ((c : Thread nD τ).loc main_arg5))) := by
  unfold Pipeline.afterTail₀
  show StableHlo.after hostOps1 _ (Proc.devRef .tc main_v17) = _
  after_results
  show shapeCast S4x2048x4096 (Pipeline.withArrays spec0 c (entry₀ m c) (fun w => (dats m 0 c).arrAt w cfg0.N)
      (Proc.devRef .tc (Pipeline.arrRef spec0 3))) shapeCasts_S8192x4096_S4x2048x4096 = _
  rw [(Pipeline.withArrays_arr spec0 launch0.win.arr_inj c (entry₀ m c) (fun w => (dats m 0 c).arrAt w cfg0.N) 3).trans (product_array m c),
    rows_array, cols_array, bias_array]
  exact split_rows_is_layer _ _ _

/-! ## The run, with the result named -/

/-- Every weakly fair execution of the kernel's program ends with the result buffer at the layer of the arguments and
    the arguments unchanged. -/
theorem run_layer : θ_run defs (onTc (τ := τ) (main (F := Ideal))) ⟨m, fun _ => 0, ρ⟩ (fun r => ∀ c : Dev nD,
      r.2.mem ((c.tc : Thread nD τ).loc main_v17) = layer (m ((c : Thread nD τ).loc main_arg0))
          (weight (m ((c : Thread nD τ).loc main_arg1)) (m ((c : Thread nD τ).loc main_arg2)) (m ((c : Thread nD τ).loc main_arg3)) (m ((c : Thread nD τ).loc main_arg4)))
          (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v17 (Pipeline.mem_restRefs_of main_v17 (by decide) (by decide))).trans (result_array m c),
     (((h c).2 main_arg0 (Pipeline.mem_restRefs_of main_arg0 (by decide) (by decide))).trans (exit_of_entry m (dats m) c main_arg0 (by decide) (by decide))).trans (entry_arg0 m c),
     (((h c).2 main_arg1 (Pipeline.mem_restRefs_of main_arg1 (by decide) (by decide))).trans (exit_of_entry m (dats m) c main_arg1 (by decide) (by decide))).trans (entry_arg1 m c),
     (((h c).2 main_arg2 (Pipeline.mem_restRefs_of main_arg2 (by decide) (by decide))).trans (exit_of_entry m (dats m) c main_arg2 (by decide) (by decide))).trans (entry_arg2 m c),
     (((h c).2 main_arg3 (Pipeline.mem_restRefs_of main_arg3 (by decide) (by decide))).trans (exit_of_entry m (dats m) c main_arg3 (by decide) (by decide))).trans (entry_arg3 m c),
     (((h c).2 main_arg4 (Pipeline.mem_restRefs_of main_arg4 (by decide) (by decide))).trans (exit_of_entry m (dats m) c main_arg4 (by decide) (by decide))).trans (entry_arg4 m c),
     (((h c).2 main_arg5 (Pipeline.mem_restRefs_of main_arg5 (by decide) (by decide))).trans (exit_of_entry m (dats m) c main_arg5 (by decide) (by decide))).trans (entry_arg5 m c)⟩)
    (runs m ρ)

end Cert.KernelIdeal.Product

end
-- ==== Proof.ReferenceLayer.lean ====
/-
  The reference computes the layer.

  Its last three stages are a contraction of the activations' feature axis with the weight block's input-feature
  axis, the bias broadcast over batches and positions, and their sum.  Read at the entry (b, s, o) these are
  ∑ f, x[b, s, f] · W[o, f], then bias[o], then their sum: the layer's definition.  The weight block is kept as one
  opaque array throughout.
-/
import proofs.«141760_j65352222376532_1_alg».proof.Proof.Gen.ReferenceIdeal.Read
import proofs.«141760_j65352222376532_1_alg».proof.Proof.Layer

noncomputable section

open scoped BigOperators

namespace Cert.ReferenceIdeal.Layer

open Cert.ReferenceIdeal Cert.ReferenceIdeal.Read Idealize.ShloMosaic Idealize.ShloMosaic.ValueIdx Cert.QuatLinear

/-- The reference's result is the layer of its activations, its assembled weight block and its bias. -/
theorem result_is_layer (x0 : FVec Ideal S4x2048x4096 .f32) (x1 x2 x3 x4 : FVec Ideal S1024x1024 .f32) (x5 : FVec Ideal S4096 .f32) :
    val_main_v14 (F := Ideal) x0 x1 x2 x3 x4 x5 = layer x0 (val_main_v10 (F := Ideal) x1 x2 x3 x4) x5 := by
  funext i
  obtain ⟨b, s, o, rfl⟩ : ∃ (b : Fin 4) (s : Fin 2048) (o : Fin 4096), i = ix3 b s o := ⟨i 0, i 1, i 2, eq_ix3 i⟩
  rw [val_main_v14_apply, val_main_v11_apply, val_main_v13_apply, val_main_v12_apply, layer_apply]
  generalize val_main_v10 (F := Ideal) x1 x2 x3 x4 = W
  have el : ∀ k : Fin 4096, lidx_main_v11 (ix3 b s o) k = ix3 b s k := fun k => funext fun a => Fin.ext (by
    match a with | ⟨0, _⟩ => rfl | ⟨1, _⟩ => rfl | ⟨2, _⟩ => rfl)
  have er : ∀ k : Fin 4096, ridx_main_v11 (ix3 b s o) k = ix2 o k := fun k => funext fun a => Fin.ext (by
    match a with | ⟨0, _⟩ => rfl | ⟨1, _⟩ => rfl)
  have eb : idx_main_v12 (idx_main_v13 (ix3 b s o)) = ix1 o := funext fun a => Fin.ext (by
    match a with | ⟨0, _⟩ => rfl)
  simp only [el, er, eb, Ideal.addf_def]
  rfl

end Cert.ReferenceIdeal.Layer

end
-- ==== Proof.lean ====
/-
  A quaternion linear layer: the blocked kernel against the plain contraction.

  Both programs assemble the same 4096 × 4096 weight block W from the four 1024 × 1024 quaternion components (the
  Hamilton arrangement of signed copies).  The reference contracts the activations x[b, s, ·] with W[o, ·] and adds
  bias[o].  The kernel's program merges the batch and position axes of x, transposes W, and runs a 16 × 4 grid of
  512 × 1024 output blocks, each the product of 512 merged rows of x with 1024 columns of the transpose, accumulated
  from zero, plus the bias row; the blocks tile the output, and the merged rows are split again at the end.  On the
  extended reals every entry of either result is

      (∑ f, x[b, s, f] · W[o, f]) + bias[o],

  with no rearrangement of the sum and no use of finiteness.  The narrowing of the kernel's operands to a shorter
  float format is the identity on the extended reals, and the idealized kernel is the kernel's own text, so there is
  nothing to preserve beyond that.

  Frames: each of the two kernel programs is sixteen host operations, one region, one host operation; no host
  operation writes an argument, no window of the region stages one, and the body at every grid point only reads its
  three input buffers and overwrites its output buffer.  The reference is a straight line of host operations.
-/
import proofs.«141760_j65352222376532_1_alg».proof.Defs
import proofs.«141760_j65352222376532_1_alg».proof.Proof.KernelBody
import proofs.«141760_j65352222376532_1_alg».proof.Proof.KernelIdealBody
import proofs.«141760_j65352222376532_1_alg».proof.Proof.ProductHost
import proofs.«141760_j65352222376532_1_alg».proof.Proof.ReferenceLayer
import proofs.«141760_j65352222376532_1_alg».proof.Proof.Gen.Kernel
import proofs.«141760_j65352222376532_1_alg».proof.Proof.Gen.KernelIdeal
import proofs.«141760_j65352222376532_1_alg».proof.Proof.Gen.ReferenceIdeal
import proofs.«141760_j65352222376532_1_alg».proof.Proof.Gen.ReferenceIdeal.Run
import proofs.«141760_j65352222376532_1_alg».proof.Proof.Gen.ReferenceIdeal.Read
import proofs.«141760_j65352222376532_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem Cert.QuatLinear

/-- The two programs assemble the weight block by the same operations on the same components. -/
theorem same_weight (wr wi wj wk : FVec Ideal Cert.KernelIdeal.S1024x1024 .f32) :
    Cert.ReferenceIdeal.Read.val_main_v10 (F := Ideal) wr wi wj wk = Cert.KernelIdeal.Product.weight wr wi wj wk := rfl

theorem frame_kernel : Cert.frame_Kernel := fun m ρ _ => Cert.Kernel.Region.args_unchanged m ρ
theorem frame_kernel_ideal : Cert.frame_KernelIdeal := fun m ρ _ => Cert.KernelIdeal.Region.args_unchanged m ρ
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at the layer of the (agreeing) arguments. -/
theorem algebraic : Cert.algebraic_KernelIdeal_ReferenceIdeal := by
  intro m ρ m' ρ' _ hagree
  refine ⟨_, Cert.KernelIdeal.Product.run_layer m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.Layer.result_is_layer, same_weight,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
